-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S128x2048 .f32 .bf16
  ∧ IdealRules.truncf_extf.Statement Cert.KernelIdeal.S128x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048x2048 .f32) (main_arg9 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S128x2048 : Shape := ⟨2, ![128, 2048]⟩

abbrev nBuf : Space → Nat
  | .hbm => 23
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .bf16⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .bf16⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S2048x2048, .bf16⟩
  | .local _ .vmem, ⟨9, _⟩ => ⟨S2048x2048, .bf16⟩
  | .local _ .vmem, ⟨10, _⟩ => ⟨S1x2048, .f32⟩
  | .local _ .vmem, ⟨11, _⟩ => ⟨S2048x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x2048, .bf16⟩
  | .local _ .vmem, ⟨15, _⟩ => ⟨S1x2048, .f32⟩
  | .local _ .vmem, ⟨16, _⟩ => ⟨S128x2048, .f32⟩
  | .local _ .vmem, ⟨17, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  natLt_1_32 : 1 < 32
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S4096x2048.size a
  hwx0_3 : ∀ i : grid0.Coords, EltTy.bits .f32 = 32 ∨ (Rect.block (s := S4096x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x2048.size a ≤ S2048x2048.size a
  hwx0_10 : ∀ i : grid0.Coords, EltTy.bits .bf16 = 32 ∨ (Rect.block (s := S2048x2048) S2048x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S4096x2048.size a
  hwx0_12 : ∀ i : grid0.Coords, EltTy.bits .f32 = 32 ∨ (Rect.block (s := S4096x2048) S128x2048.size (cc0_transform_12 i) (hinb0_12 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S2048x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S128x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S2048x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S2048x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x2048, .f32⟩
  | .hbm, ⟨62, _⟩ => ⟨S4096x2048, .i1⟩
  | .hbm, ⟨63, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LibRealEntries.lean ====
/-
  Extended reals that are real numbers: a small library.

  `IsReal x` says the extended real `x` is a real number (neither infinity). Real entries are closed under
  sums, products and finite sums; an entry below +∞ in absolute value is real; a scatter-add of real updates
  onto a real operand is real everywhere. The coercion ℝ → EReal commutes with finite sums. Last, one algebraic
  law that needs real entries (distributivity fails at the infinities): a row `a` through two affine maps in a
  row, `(a · W₁ + b₁) · W₂ + b₂`, is the row through the collapsed map, `a · (W₁ W₂) + (b₁ · W₂ + b₂)`.
-/
import Idealize.ShloMosaic.PureOps.Ideal

namespace Cert.Hand

open scoped BigOperators

/-- An extended real that is a real number (neither infinity). -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An extended real strictly between the infinities in absolute value is a real number. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for a row `a`, weights `w₁`, `w₂` (the second at one output column) and biases `b₁`, `b₂`,
    all real, the collapsed affine map `a · (w₁ w₂) + (b₁ · w₂ + b₂)` is the two maps in a row,
    `(a · w₁ + b₁) · w₂ + b₂`. -/
theorem affine_collapse {K L : Type} [Fintype K] [Fintype L]
    (a : K → EReal) (w₁ : K → L → EReal) (b₁ : L → EReal) (w₂ : L → EReal) (b₂ : EReal)
    (ha : ∀ k, IsReal (a k)) (hw₁ : ∀ k l, IsReal (w₁ k l)) (hb₁ : ∀ l, IsReal (b₁ l))
    (hw₂ : ∀ l, IsReal (w₂ l)) (hb₂ : IsReal b₂) :
    (∑ k, a k * ∑ l, w₁ k l * w₂ l) + ((∑ l, b₁ l * w₂ l) + b₂)
      = (∑ l, ((∑ k, a k * w₁ k l) + b₁ l) * w₂ l) + b₂ := by
  choose a' ha' using ha
  choose w₁' hw₁' using hw₁
  choose b₁' hb₁' using hb₁
  choose w₂' hw₂' using hw₂
  obtain ⟨b₂', rfl⟩ := hb₂
  obtain rfl : a = fun k => (a' k : EReal) := funext ha'
  obtain rfl : w₁ = fun k l => (w₁' k l : EReal) := funext fun k => funext (hw₁' k)
  obtain rfl : b₁ = fun l => (b₁' l : EReal) := funext hb₁'
  obtain rfl : w₂ = fun l => (w₂' l : EReal) := funext hw₂'
  simp only [← EReal.coe_mul, ← coe_sum, ← EReal.coe_add]
  congr 1
  simp only [Finset.mul_sum, add_mul, Finset.sum_mul, Finset.sum_add_distrib]
  rw [Finset.sum_comm]
  simp only [mul_assoc, add_assoc]

/-- A scatter-add of real updates onto a real operand is real everywhere: each entry is the operand's entry
    plus a finite sum of updates (the ones that land on it). -/
theorem hostScatterAdd_isReal {s si su : Idealize.ShloMosaic.Shape} (d : Idealize.ShloMosaic.ScatterDims s si su) {w : Nat}
    (x : s.Idx → EReal) (idx : Idealize.ShloMosaic.IVec si w) (upd : su.Idx → EReal)
    (hx : ∀ i, IsReal (x i)) (hu : ∀ j, IsReal (upd j)) (i : s.Idx) :
    IsReal (Idealize.ShloMosaic.Ideal.hostScatterAdd d x idx upd i) :=
  IsReal.add (hx i) (IsReal.sum _ _ fun j _ => hu j)

end Cert.Hand
-- ==== Proof.RealInputs.lean ====
/-
  From the precondition to real entries.

  The precondition is the conjunction, over the ten argument arrays, of "every entry is below +∞ in absolute
  value". An extended real whose absolute value is below +∞ is a real number. Read here for the five arrays whose
  entries the kernel subtracts from themselves, or whose entries make up a value it so subtracts: the input x,
  the membrane state u, the synaptic weights and bias, and the membrane-gate weights.
-/
import proofs.«135456_j47614007444119_2_alg».proof.Pre_finite_inputs
import proofs.«135456_j47614007444119_2_alg».proof.Proof.LibRealEntries
import Idealize.ShloMosaic.PureOps.Ideal.Laws
import Idealize.ShloMosaic.Lib.ReduceAll
import Idealize.ShloMosaic.Lib.ValueIdx

noncomputable section

namespace Cert.Hand

open Idealize.ShloMosaic

/-- The rank-0 shape has one index. -/
instance : Subsingleton Cert.Pre_finite_inputs.S_.Idx := ⟨fun a b => funext fun d => d.elim0⟩

/-- The f32 word `0x7F800000` denotes +∞. -/
theorem inf_word : Ideal.ofBits .f32 0x7F800000#32 = ⊤ := by simp [Ideal.ofBits, Ideal.ieee]

/-- An entry the printed comparison `|x| < +∞` answers 1 for is a real number. -/
theorem isReal_of_below_inf {x : EReal}
    (h : Ideal.cmp .olt (max x (-x)) (Ideal.ofBits .f32 0x7F800000#32) = 1#1) : IsReal x := by
  rw [inf_word] at h
  refine isReal_of_abs_lt_top ?_
  by_contra hn
  simp [Ideal.cmp, hn] at h

variable [Cert.Pre_finite_inputs.Facts]

/-- Under the precondition the entries of x, u, W_syn, b_syn and W_Tm are real numbers. -/
theorem real_of_finite_inputs
    (a0 a1 a2 a3 : FVec Ideal Cert.Pre_finite_inputs.S4096x2048 .f32)
    (a4 : FVec Ideal Cert.Pre_finite_inputs.S2048x2048 .f32) (a5 : FVec Ideal Cert.Pre_finite_inputs.S2048 .f32)
    (a6 : FVec Ideal Cert.Pre_finite_inputs.S2048x2048 .f32) (a7 : FVec Ideal Cert.Pre_finite_inputs.S2048 .f32)
    (a8 : FVec Ideal Cert.Pre_finite_inputs.S2048x2048 .f32) (a9 : FVec Ideal Cert.Pre_finite_inputs.S2048 .f32)
    (h : Cert.Pre_finite_inputs.fn (F := Ideal) a0 a1 a2 a3 a4 a5 a6 a7 a8 a9 = fun _ => 1#1) :
    (∀ i, IsReal (a0 i)) ∧ (∀ i, IsReal (a1 i)) ∧ (∀ i, IsReal (a4 i)) ∧ (∀ i, IsReal (a5 i)) ∧ (∀ i, IsReal (a6 i)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨r0, r1⟩, -⟩, -⟩, r4⟩, r5⟩, r6⟩, -⟩, -⟩, -⟩ := h0
  exact ⟨fun i => isReal_of_below_inf (Host.reduce_andi_all _ _ _ _ _ r0 i),
    fun i => isReal_of_below_inf (Host.reduce_andi_all _ _ _ _ _ r1 i),
    fun i => isReal_of_below_inf (Host.reduce_andi_all _ _ _ _ _ r4 i),
    fun i => isReal_of_below_inf (Host.reduce_andi_all _ _ _ _ _ r5 i),
    fun i => isReal_of_below_inf (Host.reduce_andi_all _ _ _ _ _ r6 i)⟩

end Cert.Hand

end
-- ==== Proof.Spikes.lean ====
/-
  The layer's spike map as ONE function of its ten arrays, index by index, over the extended reals.

  For a batch row `p` and an output neuron `q`:
    L1(p,q)    = Σ_k x(p,k) · W_syn(q,k) + b_syn(q)                      (the synaptic drive; weights stored [out, in])
    alpha(p,q) = σ( Σ_k (L1(p,k) + u(p,k)) · W_Tm(q,k) + b_Tm(q) )        (the membrane gate)
    rho(p,q)   = σ( Σ_k (L1(p,k) + b(p,k)) · W_Tadp(q,k) + b_Tadp(q) )    (the adaptation gate)
    b'         = rho · b + (1 − rho) · spk,     thr = 0.01 + 1.8 · b'
    u'         = u + (−u + L1) / alpha,         spike = 1 if u' − thr > 0 else 0
  with σ z = 1 / (1 + e^(−z)). The float words 0.01, 1.8, 1 and 0 are kept as the words both programs print.

  Beside it, the two facts about real entries the kernel's split products rest on: a real number minus itself
  is zero (at an infinity the difference is −∞, so this is where finiteness of the inputs is used), and hence a
  product taken as high·high + high·low + low·high, where each operand's high part is the operand and its low
  part is the operand minus itself, is the plain product.
-/
import Idealize.ShloMosaic.PureOps.Ideal
import Idealize.ShloMosaic.PureOps.Ideal.Laws
import Idealize.ShloMosaic.Lib.ValueIdx
import proofs.«135456_j47614007444119_2_alg».proof.Proof.LibRealEntries

noncomputable section

namespace Cert.Hand

open Idealize.ShloMosaic Idealize.ShloMosaic.ValueIdx
open scoped BigOperators

/-- The batch-by-feature arrays (x, u, b, spk and the result). -/
abbrev Rows : Shape := ⟨2, ![4096, 2048]⟩
/-- A weight matrix, stored [out, in]. -/
abbrev Weights : Shape := ⟨2, ![2048, 2048]⟩
/-- A bias vector. -/
abbrev Bias : Shape := ⟨1, ![2048]⟩

/-! ## Real entries -/

/-- A real number minus itself is zero. -/
theorem IsReal.sub_self {x : EReal} (h : IsReal x) : x - x = 0 := by
  obtain ⟨r, rfl⟩ := h
  rw [← EReal.coe_sub, _root_.sub_self, EReal.coe_zero]

/-- A product over `k` taken in three passes — the operands, the left operand against the right's remainder
    `w − w`, the left's remainder `a − a` against the right — is the plain product when the entries are real:
    both remainders vanish. -/
theorem split_product {K : Type} [Fintype K] (a w : K → EReal) (ha : ∀ k, IsReal (a k)) (hw : ∀ k, IsReal (w k)) :
    ((∑ k, a k * w k) + ∑ k, a k * (w k - w k)) + ∑ k, (a k - a k) * w k = ∑ k, a k * w k := by
  have h1 : ∀ k, a k * (w k - w k) = 0 := fun k => by rw [(hw k).sub_self, mul_zero]
  have h2 : ∀ k, (a k - a k) * w k = 0 := fun k => by rw [(ha k).sub_self, zero_mul]
  simp only [h1, h2, Finset.sum_const_zero, add_zero]

/-! ## The layer -/

/-- One output of a linear layer whose weights are stored [out, in]: row `p` of `a` against row `q` of `W`,
    plus the bias at `q`. -/
def linear (a : Rows.Idx → EReal) (W : Weights.Idx → EReal) (b : Bias.Idx → EReal) (p : Fin 4096) (q : Fin 2048) : EReal :=
  (∑ k : Fin 2048, a (ix2 p k) * W (ix2 q k)) + b (ix1 q)

/-- The synaptic drive L1 = x · W_synᵀ + b_syn, as an array. -/
def drive (x : Rows.Idx → EReal) (W : Weights.Idx → EReal) (b : Bias.Idx → EReal) : Rows.Idx → EReal :=
  fun j => linear x W b (j 0) (j 1)

/-- A gate σ(a · Wᵀ + b), as an array. -/
def gate (a : Rows.Idx → EReal) (W : Weights.Idx → EReal) (b : Bias.Idx → EReal) : Rows.Idx → EReal :=
  fun j => Ideal.logistic (linear a W b (j 0) (j 1))

/-- One neuron's spike from its drive `l1`, its states `u`, `bt`, `s` and its gates `alpha`, `rho`:
    1 when `u + (−u + l1) / alpha` exceeds the threshold `0.01 + 1.8 · (rho · bt + (1 − rho) · s)`, else 0. -/
def spikeOf (l1 u bt s alpha rho : EReal) : EReal :=
  (((Ideal.cmp .ogt
      ((u + Ideal.div (-u + l1) alpha)
        - (Ideal.ofBits .f32 0x3C23D70A#32
            + Ideal.ofBits .f32 0x3FE66666#32 * (rho * bt + (Ideal.ofBits .f32 0x3F800000#32 - rho) * s)))
      (Ideal.ofBits .f32 0x00000000#32)).toNat : ℝ) : EReal)

/-- The spikes of the whole batch. -/
def spikes (x u bt s : Rows.Idx → EReal) (Wsyn : Weights.Idx → EReal) (bsyn : Bias.Idx → EReal)
    (Wtm : Weights.Idx → EReal) (btm : Bias.Idx → EReal) (Wtadp : Weights.Idx → EReal) (btadp : Bias.Idx → EReal) :
    Rows.Idx → EReal := fun j =>
  spikeOf (drive x Wsyn bsyn j) (u j) (bt j) (s j)
    (gate (fun i => drive x Wsyn bsyn i + u i) Wtm btm j)
    (gate (fun i => drive x Wsyn bsyn i + bt i) Wtadp btadp j)

/-- The drive of real inputs, weights and bias is real: a finite sum of real products plus a real. -/
theorem drive_isReal {x : Rows.Idx → EReal} {W : Weights.Idx → EReal} {b : Bias.Idx → EReal}
    (hx : ∀ i, IsReal (x i)) (hW : ∀ i, IsReal (W i)) (hb : ∀ i, IsReal (b i)) (j : Rows.Idx) :
    IsReal (drive x W b j) :=
  IsReal.add (IsReal.sum _ _ fun k _ => (hx _).mul (hW _)) (hb _)

/-- The f32 word of `1.0` denotes the number one. -/
theorem one_word : Ideal.ofBits .f32 0x3F800000#32 = 1 := IdealRules.sign_bit.ideal_onePat .f32

/-- σ spelled out with the word of `1.0`: `1.0 / (1.0 + e^(−z))` is σ z. -/
theorem logistic_spelled (z : EReal) :
    Ideal.div (Ideal.ofBits .f32 0x3F800000#32) (Ideal.ofBits .f32 0x3F800000#32 + Ideal.exp (-z)) = Ideal.logistic z := by
  rw [one_word]; rfl

/-- The f32 zero word subtracted from: `0.0 − u` is `−u`. -/
theorem zero_word_sub (u : EReal) : Ideal.ofBits .f32 0x00000000#32 - u = -u := by
  rw [Ideal.ofBits_zero_f32, sub_eq_add_neg, zero_add]

/-- A one-bit word widened to 32 bits and read as a signed integer is the bit. -/
theorem bit_widened (b : BitVec 1) : (((b.setWidth 32).toInt : ℝ) : EReal) = (((b.toNat : ℝ)) : EReal) := by
  have h : ∀ b : BitVec 1, (b.setWidth 32).toInt = (b.toNat : Int) := by decide
  rw [h b, Int.cast_natCast]

end Cert.Hand

end
-- ==== Proof.ReferenceSpikes.lean ====
/-
  The reference computes the spike map.

  Read one operation at a time (the generated read-at-an-index lemmas), the reference's result at (p, q) is
  `spikeOf` of its drive, its states and its two gates. Its three matrix products contract the activations'
  feature axis against the TRANSPOSED weights' first axis, so entry (p, q) pairs x(p, k) with W(q, k): the
  layer's `linear`. Its sigmoid is spelled `1.0 / (1.0 + e^(−z))`, which is σ.
-/
import proofs.«135456_j47614007444119_2_alg».proof.Proof.Gen.ReferenceIdeal.Read
import proofs.«135456_j47614007444119_2_alg».proof.Proof.Spikes

noncomputable section

namespace Cert.Hand

open Cert.ReferenceIdeal Cert.ReferenceIdeal.Read Idealize.ShloMosaic Idealize.ShloMosaic.ValueIdx

/-- The reference's biased product `x · W_synᵀ + b_syn` is the drive. -/
theorem ref_drive (x0 : (⟨S4096x2048, .f32⟩ : BufTy).Contents (Elt Ideal)) (x4 : (⟨S2048x2048, .f32⟩ : BufTy).Contents (Elt Ideal))
    (x5 : (⟨S2048, .f32⟩ : BufTy).Contents (Elt Ideal)) :
    val_main_v4 (F := Ideal) x0 x4 x5 = drive x0 x4 x5 := by
  funext j
  rw [val_main_v4_apply, val_main_v1_apply, val_main_v3_apply, val_main_v2_apply, Ideal.addf_def]
  unfold drive linear
  refine congrArg₂ (· + ·) (Finset.sum_congr rfl fun k _ => ?_) ?_
  · rw [val_main_v0_apply]
    have el : lidx_main_v1 j k = ix2 (j 0) k := funext fun a => by match a with | ⟨0, _⟩ => rfl | ⟨1, _⟩ => rfl
    have er : idx_main_v0 (ridx_main_v1 j k) = ix2 (j 1) k := funext fun a => by match a with | ⟨0, _⟩ => rfl | ⟨1, _⟩ => rfl
    rw [el, er]
    rfl
  · have eb : idx_main_v2 (idx_main_v3 j) = ix1 (j 1) := funext fun a => by match a with | ⟨0, _⟩ => rfl
    rw [eb]
    rfl

/-- The reference's membrane gate `σ((L1 + u) · W_Tmᵀ + b_Tm)`. -/
theorem ref_alpha (x0 x1 : (⟨S4096x2048, .f32⟩ : BufTy).Contents (Elt Ideal)) (x4 : (⟨S2048x2048, .f32⟩ : BufTy).Contents (Elt Ideal))
    (x5 : (⟨S2048, .f32⟩ : BufTy).Contents (Elt Ideal)) (x6 : (⟨S2048x2048, .f32⟩ : BufTy).Contents (Elt Ideal))
    (x7 : (⟨S2048, .f32⟩ : BufTy).Contents (Elt Ideal)) :
    val_main_v16 (F := Ideal) x0 x1 x4 x5 x6 x7 = gate (fun i => drive x0 x4 x5 i + x1 i) x6 x7 := by
  funext j
  rw [val_main_v16_apply, val_main_v15_apply, val_main_cst_0_apply, val_main_v14_apply, val_main_v13_apply,
    val_main_cst_apply, val_main_v12_apply, val_main_v11_apply, val_main_v10_apply, val_main_v7_apply,
    val_main_v9_apply, val_main_v8_apply]
  simp only [Ideal.hostDivf_def, Ideal.addf_def, Ideal.hostUnary_exp_def, Ideal.hostNegf_def, Ideal.negf_def, Ideal.ofBits_def]
  rw [logistic_spelled]
  unfold gate linear
  refine congrArg Ideal.logistic (congrArg₂ (· + ·) (Finset.sum_congr rfl fun k _ => ?_) ?_)
  · rw [val_main_v5_apply, val_main_v6_apply, ref_drive, Ideal.addf_def]
    have el : lidx_main_v7 j k = ix2 (j 0) k := funext fun a => by match a with | ⟨0, _⟩ => rfl | ⟨1, _⟩ => rfl
    have er : idx_main_v6 (ridx_main_v7 j k) = ix2 (j 1) k := funext fun a => by match a with | ⟨0, _⟩ => rfl | ⟨1, _⟩ => rfl
    rw [el, er]
    rfl
  · have eb : idx_main_v8 (idx_main_v9 j) = ix1 (j 1) := funext fun a => by match a with | ⟨0, _⟩ => rfl
    rw [eb]
    rfl

/-- The reference's adaptation gate `σ((L1 + b) · W_Tadpᵀ + b_Tadp)`. -/
theorem ref_rho (x0 x2 : (⟨S4096x2048, .f32⟩ : BufTy).Contents (Elt Ideal)) (x4 : (⟨S2048x2048, .f32⟩ : BufTy).Contents (Elt Ideal))
    (x5 : (⟨S2048, .f32⟩ : BufTy).Contents (Elt Ideal)) (x8 : (⟨S2048x2048, .f32⟩ : BufTy).Contents (Elt Ideal))
    (x9 : (⟨S2048, .f32⟩ : BufTy).Contents (Elt Ideal)) :
    val_main_v28 (F := Ideal) x0 x2 x4 x5 x8 x9 = gate (fun i => drive x0 x4 x5 i + x2 i) x8 x9 := by
  funext j
  rw [val_main_v28_apply, val_main_v27_apply, val_main_cst_2_apply, val_main_v26_apply, val_main_v25_apply,
    val_main_cst_1_apply, val_main_v24_apply, val_main_v23_apply, val_main_v22_apply, val_main_v19_apply,
    val_main_v21_apply, val_main_v20_apply]
  simp only [Ideal.hostDivf_def, Ideal.addf_def, Ideal.hostUnary_exp_def, Ideal.hostNegf_def, Ideal.negf_def, Ideal.ofBits_def]
  rw [logistic_spelled]
  unfold gate linear
  refine congrArg Ideal.logistic (congrArg₂ (· + ·) (Finset.sum_congr rfl fun k _ => ?_) ?_)
  · rw [val_main_v17_apply, val_main_v18_apply, ref_drive, Ideal.addf_def]
    have el : lidx_main_v19 j k = ix2 (j 0) k := funext fun a => by match a with | ⟨0, _⟩ => rfl | ⟨1, _⟩ => rfl
    have er : idx_main_v18 (ridx_main_v19 j k) = ix2 (j 1) k := funext fun a => by match a with | ⟨0, _⟩ => rfl | ⟨1, _⟩ => rfl
    rw [el, er]
    rfl
  · have eb : idx_main_v20 (idx_main_v21 j) = ix1 (j 1) := funext fun a => by match a with | ⟨0, _⟩ => rfl
    rw [eb]
    rfl

/-- The reference's result is the spike map of its arguments. -/
theorem ref_spikes (x0 x1 x2 x3 : (⟨S4096x2048, .f32⟩ : BufTy).Contents (Elt Ideal)) (x4 : (⟨S2048x2048, .f32⟩ : BufTy).Contents (Elt Ideal))
    (x5 : (⟨S2048, .f32⟩ : BufTy).Contents (Elt Ideal)) (x6 : (⟨S2048x2048, .f32⟩ : BufTy).Contents (Elt Ideal))
    (x7 : (⟨S2048, .f32⟩ : BufTy).Contents (Elt Ideal)) (x8 : (⟨S2048x2048, .f32⟩ : BufTy).Contents (Elt Ideal))
    (x9 : (⟨S2048, .f32⟩ : BufTy).Contents (Elt Ideal)) :
    val_main_v45 (F := Ideal) x0 x1 x2 x3 x4 x5 x6 x7 x8 x9 = spikes x0 x1 x2 x3 x4 x5 x6 x7 x8 x9 := by
  funext j
  rw [val_main_v45_apply, val_main_v44_apply, val_main_v43_apply, val_main_cst_6_apply, val_main_v42_apply,
    val_main_v41_apply, val_main_v40_apply, val_main_v39_apply, val_main_v38_apply, val_main_v37_apply,
    val_main_v36_apply, val_main_cst_5_apply, val_main_v35_apply, val_main_v34_apply, val_main_cst_4_apply,
    val_main_v33_apply, val_main_v32_apply, val_main_v31_apply, val_main_v30_apply, val_main_cst_3_apply,
    val_main_v29_apply, ref_drive, ref_alpha, ref_rho]
  rfl

end Cert.Hand

end
-- ==== Proof.KernelBlock.lean ====
/-
  What the kernel's body computes for one block of 128 batch rows, entry by entry.

  The body stores one value: `k0_pay1` of the drive `k0_pay2`, the loaded states and the membrane pre-activation
  `k0_pay3`. Each of its matrix products contracts the feature axis of a 128 × 2048 block with the second axis of
  a 2048 × 2048 weight block ([out, in] storage), so entry (r, q) pairs row r of the left with row q of the right.
  The drive and the membrane pre-activation are each taken in three passes — high·high + high·low + low·high,
  where at exact arithmetic an operand's high part is the operand and its low part the operand minus itself —
  which is the plain product once the entries are real (`split_product`). The rest is the spike map's own
  arithmetic, with `0.0 − u` for `−u` and the comparison's bit widened to a word before it is read as a number.
-/
import proofs.«135456_j47614007444119_2_alg».proof.Proof.Gen.KernelIdeal.Skeleton
import proofs.«135456_j47614007444119_2_alg».proof.Proof.Spikes
import Idealize.ShloMosaic.Lib.ValueIdx
import Idealize.ShloMosaic.Lib.ValueLayout
import Idealize.ShloMosaic.Lib.Pipeline.Value
import Idealize.ShloMosaic.PureOps.Ideal.Laws

noncomputable section

namespace Cert.Hand

open Cert.KernelIdeal Cert.KernelIdeal.Gen Idealize.ShloMosaic Idealize.ShloMosaic.ValueIdx
open scoped BigOperators

/-! ## The body's matrix product at an entry -/

theorem kdot_lhs0 (j : S128x2048.Idx) (c : dot_S128x2048_S2048x2048_S128x2048_1_1_0_0_n_n.contr.Idx) :
    (dot_S128x2048_S2048x2048_S128x2048_1_1_0_0_n_n.lhsIdx j c 0).val = (j 0).val := by
  unfold DotDims.lhsIdx
  rw [dif_neg (show ¬(0 : Fin S128x2048.rank) ∈ dot_S128x2048_S2048x2048_S128x2048_1_1_0_0_n_n.lhsBatch by decide),
    dif_pos (show (0 : Fin S128x2048.rank) ∈ dot_S128x2048_S2048x2048_S128x2048_1_1_0_0_n_n.lhsNonContracting by decide)]
  rfl
theorem kdot_lhs1 (j : S128x2048.Idx) (c : dot_S128x2048_S2048x2048_S128x2048_1_1_0_0_n_n.contr.Idx) :
    (dot_S128x2048_S2048x2048_S128x2048_1_1_0_0_n_n.lhsIdx j c 1).val = (c ⟨0, by decide⟩).val :=
  dot_S128x2048_S2048x2048_S128x2048_1_1_0_0_n_n.lhsIdx_val_of_single rfl j c
theorem kdot_rhs0 (j : S128x2048.Idx) (c : dot_S128x2048_S2048x2048_S128x2048_1_1_0_0_n_n.contr.Idx) :
    (dot_S128x2048_S2048x2048_S128x2048_1_1_0_0_n_n.rhsIdx j c 0).val = (j 1).val := by
  unfold DotDims.rhsIdx
  rw [dif_neg (show ¬(0 : Fin S2048x2048.rank) ∈ dot_S128x2048_S2048x2048_S128x2048_1_1_0_0_n_n.rhsBatch by decide),
    dif_pos (show (0 : Fin S2048x2048.rank) ∈ dot_S128x2048_S2048x2048_S128x2048_1_1_0_0_n_n.rhsNonContracting by decide)]
  rfl
theorem kdot_rhs1 (j : S128x2048.Idx) (c : dot_S128x2048_S2048x2048_S128x2048_1_1_0_0_n_n.contr.Idx) :
    (dot_S128x2048_S2048x2048_S128x2048_1_1_0_0_n_n.rhsIdx j c 1).val = (c ⟨0, by decide⟩).val :=
  dot_S128x2048_S2048x2048_S128x2048_1_1_0_0_n_n.rhsIdx_val_of_single rfl j c

/-- The body's product into the zero accumulator, at (r, q): row r of the left against row q of the right. -/
theorem kdot_apply {φ₁ φ₂ : FTy} (L : FVec Ideal S128x2048 φ₁) (R : FVec Ideal S2048x2048 φ₂) (r : Fin 128) (q : Fin 2048) :
    matmul dot_S128x2048_S2048x2048_S128x2048_1_1_0_0_n_n none L R (constant S128x2048 .f32 0x00000000#32) (ix2 r q)
      = ∑ k : Fin 2048, L (ix2 r k) * R (ix2 q k) := by
  simp only [matmul]
  rw [Ideal.matmul_constant_zero_apply,
    ← Equiv.sum_comp (ValueIdx.contrEquiv1 dot_S128x2048_S2048x2048_S128x2048_1_1_0_0_n_n 2048 rfl rfl).symm]
  refine Finset.sum_congr rfl fun k _ => ?_
  have hk := ValueIdx.contrEquiv1_symm_val dot_S128x2048_S2048x2048_S128x2048_1_1_0_0_n_n 2048 rfl rfl k
  have el : dot_S128x2048_S2048x2048_S128x2048_1_1_0_0_n_n.lhsIdx (ix2 r q)
      ((ValueIdx.contrEquiv1 dot_S128x2048_S2048x2048_S128x2048_1_1_0_0_n_n 2048 rfl rfl).symm k) = ix2 r k :=
    funext fun a => Fin.ext (by
      match a with
      | ⟨0, _⟩ => exact kdot_lhs0 _ _
      | ⟨1, _⟩ => exact (kdot_lhs1 _ _).trans hk)
  have er : dot_S128x2048_S2048x2048_S128x2048_1_1_0_0_n_n.rhsIdx (ix2 r q)
      ((ValueIdx.contrEquiv1 dot_S128x2048_S2048x2048_S128x2048_1_1_0_0_n_n 2048 rfl rfl).symm k) = ix2 q k :=
    funext fun a => Fin.ext (by
      match a with
      | ⟨0, _⟩ => exact kdot_rhs0 _ _
      | ⟨1, _⟩ => exact (kdot_rhs1 _ _).trans hk)
  rw [el, er]

/-- The sigmoid of a vector, at an entry. -/
theorem logistic_at {s : Shape} {φ : FTy} (a : FVec Ideal s φ) (i : s.Idx) : logistic a i = Ideal.logistic (a i) := rfl

/-! ## The three payloads at an entry -/

/-- The drive's payload at (r, q): three passes over the features, plus the bias row. -/
theorem pay2_apply (X0 : Vec Ideal S128x2048 .f32) (X4 X5 : Vec Ideal S2048x2048 .bf16) (X6 : Vec Ideal S1x2048 .f32)
    (r : Fin 128) (q : Fin 2048) :
    k0_pay2 X0 X4 X5 X6 (ix2 r q)
      = (((∑ k : Fin 2048, X0 (ix2 r k) * X4 (ix2 q k)) + ∑ k : Fin 2048, X0 (ix2 r k) * X5 (ix2 q k))
          + ∑ k : Fin 2048, (X0 (ix2 r k) - X0 (ix2 r k)) * X4 (ix2 q k)) + X6 (ix2 (0 : Fin 1) q) := by
  unfold k0_pay2
  simp only [addf_apply, kdot_apply, shapeCast_self, broadcastTo_1b_ab_apply, truncf_apply, subf_apply]

/-- The membrane pre-activation's payload at (r, q): three passes over the drive plus the membrane state. -/
theorem pay3_apply (X0 : Vec Ideal S128x2048 .f32) (X4 X5 : Vec Ideal S2048x2048 .bf16) (X6 : Vec Ideal S1x2048 .f32)
    (X1 : Vec Ideal S128x2048 .f32) (X7 X8 : Vec Ideal S2048x2048 .bf16) (r : Fin 128) (q : Fin 2048) :
    k0_pay3 X0 X4 X5 X6 X1 X7 X8 (ix2 r q)
      = ((∑ k : Fin 2048, (k0_pay2 X0 X4 X5 X6 (ix2 r k) + X1 (ix2 r k)) * X7 (ix2 q k))
          + ∑ k : Fin 2048, (k0_pay2 X0 X4 X5 X6 (ix2 r k) + X1 (ix2 r k)) * X8 (ix2 q k))
          + ∑ k : Fin 2048, ((k0_pay2 X0 X4 X5 X6 (ix2 r k) + X1 (ix2 r k)) - (k0_pay2 X0 X4 X5 X6 (ix2 r k) + X1 (ix2 r k))) * X7 (ix2 q k) := by
  unfold k0_pay3
  simp only [addf_apply, kdot_apply, shapeCast_self, truncf_apply, subf_apply]

/-- One neuron's spike as the body spells it — `0.0 − u` for `−u`, the comparison's bit widened to a word and
    read signed — is `spikeOf`. -/
theorem kernel_spikeOf (l1 u bt s alpha rho : EReal) :
    (((((Ideal.cmp .ogt
      ((u + Ideal.div ((Ideal.ofBits .f32 0x00000000#32 - u) + l1) alpha)
        - (Ideal.ofBits .f32 0x3C23D70A#32
            + Ideal.ofBits .f32 0x3FE66666#32 * (rho * bt + (Ideal.ofBits .f32 0x3F800000#32 - rho) * s)))
      (Ideal.ofBits .f32 0x00000000#32)).setWidth 32).toInt : ℝ)) : EReal)
      = spikeOf l1 u bt s alpha rho := by
  rw [bit_widened, zero_word_sub]
  rfl

/-- The stored payload at (r, q), from the drive `V17` and the membrane pre-activation `V34` as vectors. -/
theorem pay1_apply (V17 : FVec Ideal S128x2048 .f32) (X1 X2 X3 : Vec Ideal S128x2048 .f32) (V34 : FVec Ideal S128x2048 .f32)
    (X9 : Vec Ideal S1x2048 .f32) (X10 : Vec Ideal S2048x2048 .bf16) (X11 : Vec Ideal S1x2048 .f32) (r : Fin 128) (q : Fin 2048) :
    k0_pay1 V17 X1 X2 X3 V34 X9 X10 X11 (ix2 r q)
      = spikeOf (V17 (ix2 r q)) (X1 (ix2 r q)) (X2 (ix2 r q)) (X3 (ix2 r q))
          (Ideal.logistic (V34 (ix2 r q) + X9 (ix2 (0 : Fin 1) q)))
          (Ideal.logistic ((∑ k : Fin 2048, (V17 (ix2 r k) + X2 (ix2 r k)) * X10 (ix2 q k)) + X11 (ix2 (0 : Fin 1) q))) := by
  unfold k0_pay1
  simp only [sitofp_apply, extui_apply, cmpf_apply, subf_apply, addf_apply, divf_apply, mulf_apply, broadcast_apply, logistic_at,
    kdot_apply, shapeCast_self, broadcastTo_1b_ab_apply, truncf_apply]
  exact kernel_spikeOf _ _ _ _ _ _

/-! ## The block's value -/

/-- THE BLOCK. When the body's twelve loaded blocks are: rows of x, u, b, spk at batch row `p` (local row `r`);
    the synaptic and membrane-gate weights with their remainders `W − W`; the adaptation-gate weights; the three
    bias rows — and the entries of x, u, W_syn, b_syn, W_Tm are real — the stored value at (r, q) is the spike
    at (p, q). -/
theorem block_spikes
    (x u bt s : Rows.Idx → EReal) (Wsyn : Weights.Idx → EReal) (bsyn : Bias.Idx → EReal)
    (Wtm : Weights.Idx → EReal) (btm : Bias.Idx → EReal) (Wtadp : Weights.Idx → EReal) (btadp : Bias.Idx → EReal)
    (hx : ∀ i, IsReal (x i)) (hu : ∀ i, IsReal (u i)) (hWsyn : ∀ i, IsReal (Wsyn i)) (hbsyn : ∀ i, IsReal (bsyn i))
    (hWtm : ∀ i, IsReal (Wtm i))
    (X0 X1 X2 X3 : Vec Ideal S128x2048 .f32) (X4 X5 : Vec Ideal S2048x2048 .bf16) (X6 : Vec Ideal S1x2048 .f32)
    (X7 X8 : Vec Ideal S2048x2048 .bf16) (X9 : Vec Ideal S1x2048 .f32) (X10 : Vec Ideal S2048x2048 .bf16)
    (X11 : Vec Ideal S1x2048 .f32) (p : Fin 4096) (r : Fin 128)
    (h0 : ∀ k : Fin 2048, X0 (ix2 r k) = x (ix2 p k)) (h1 : ∀ k : Fin 2048, X1 (ix2 r k) = u (ix2 p k))
    (h2 : ∀ k : Fin 2048, X2 (ix2 r k) = bt (ix2 p k)) (h3 : ∀ k : Fin 2048, X3 (ix2 r k) = s (ix2 p k))
    (h4 : ∀ i, X4 i = Wsyn i) (h5 : ∀ i, X5 i = Wsyn i - Wsyn i) (h6 : ∀ k : Fin 2048, X6 (ix2 (0 : Fin 1) k) = bsyn (ix1 k))
    (h7 : ∀ i, X7 i = Wtm i) (h8 : ∀ i, X8 i = Wtm i - Wtm i) (h9 : ∀ k : Fin 2048, X9 (ix2 (0 : Fin 1) k) = btm (ix1 k))
    (h10 : ∀ i, X10 i = Wtadp i) (h11 : ∀ k : Fin 2048, X11 (ix2 (0 : Fin 1) k) = btadp (ix1 k)) (q : Fin 2048) :
    k0_pay1 (k0_pay2 X0 X4 X5 X6) X1 X2 X3 (k0_pay3 X0 X4 X5 X6 X1 X7 X8) X9 X10 X11 (ix2 r q)
      = spikes x u bt s Wsyn bsyn Wtm btm Wtadp btadp (ix2 p q) := by
  have hd : ∀ k : Fin 2048, k0_pay2 X0 X4 X5 X6 (ix2 r k) = drive x Wsyn bsyn (ix2 p k) := fun k => by
    rw [pay2_apply]
    simp only [h0, h4, h5, h6]
    exact congrArg (· + bsyn (ix1 k))
      (split_product (fun k' : Fin 2048 => x (ix2 p k')) (fun k' : Fin 2048 => Wsyn (ix2 k k')) (fun _ => hx _) (fun _ => hWsyn _))
  have hm : k0_pay3 X0 X4 X5 X6 X1 X7 X8 (ix2 r q)
      = ∑ k : Fin 2048, (drive x Wsyn bsyn (ix2 p k) + u (ix2 p k)) * Wtm (ix2 q k) := by
    rw [pay3_apply]
    simp only [hd, h1, h7, h8]
    exact split_product (fun k : Fin 2048 => drive x Wsyn bsyn (ix2 p k) + u (ix2 p k)) (fun k : Fin 2048 => Wtm (ix2 q k))
      (fun _ => (drive_isReal hx hWsyn hbsyn _).add (hu _)) (fun _ => hWtm _)
  rw [pay1_apply]
  simp only [hd, hm, h1, h2, h3, h9, h10, h11]
  rfl

/-- The same at any entry `y` of the block and any array index `i` in `y`'s column: what the point stores at `y`
    is the spike at `i`, when the row blocks hold row `i 0` of their arrays at local row `y 0`. -/
theorem block_spikes_at
    (x u bt s : Rows.Idx → EReal) (Wsyn : Weights.Idx → EReal) (bsyn : Bias.Idx → EReal)
    (Wtm : Weights.Idx → EReal) (btm : Bias.Idx → EReal) (Wtadp : Weights.Idx → EReal) (btadp : Bias.Idx → EReal)
    (hx : ∀ i, IsReal (x i)) (hu : ∀ i, IsReal (u i)) (hWsyn : ∀ i, IsReal (Wsyn i)) (hbsyn : ∀ i, IsReal (bsyn i))
    (hWtm : ∀ i, IsReal (Wtm i))
    (X0 X1 X2 X3 : Vec Ideal S128x2048 .f32) (X4 X5 : Vec Ideal S2048x2048 .bf16) (X6 : Vec Ideal S1x2048 .f32)
    (X7 X8 : Vec Ideal S2048x2048 .bf16) (X9 : Vec Ideal S1x2048 .f32) (X10 : Vec Ideal S2048x2048 .bf16)
    (X11 : Vec Ideal S1x2048 .f32) (y : S128x2048.Idx) (i : Rows.Idx) (hi : (i 1).val = (y 1).val)
    (h0 : ∀ k : Fin 2048, X0 (ix2 (y 0) k) = x (ix2 (i 0) k)) (h1 : ∀ k : Fin 2048, X1 (ix2 (y 0) k) = u (ix2 (i 0) k))
    (h2 : ∀ k : Fin 2048, X2 (ix2 (y 0) k) = bt (ix2 (i 0) k)) (h3 : ∀ k : Fin 2048, X3 (ix2 (y 0) k) = s (ix2 (i 0) k))
    (h4 : ∀ z, X4 z = Wsyn z) (h5 : ∀ z, X5 z = Wsyn z - Wsyn z) (h6 : ∀ k : Fin 2048, X6 (ix2 (0 : Fin 1) k) = bsyn (ix1 k))
    (h7 : ∀ z, X7 z = Wtm z) (h8 : ∀ z, X8 z = Wtm z - Wtm z) (h9 : ∀ k : Fin 2048, X9 (ix2 (0 : Fin 1) k) = btm (ix1 k))
    (h10 : ∀ z, X10 z = Wtadp z) (h11 : ∀ k : Fin 2048, X11 (ix2 (0 : Fin 1) k) = btadp (ix1 k)) :
    k0_pay1 (k0_pay2 X0 X4 X5 X6) X1 X2 X3 (k0_pay3 X0 X4 X5 X6 X1 X7 X8) X9 X10 X11 y
      = spikes x u bt s Wsyn bsyn Wtm btm Wtadp btadp i := by
  have ey : y = ix2 (y 0) (y 1) := eq_ix2 y
  have ei : i = ix2 (i 0) (y 1) := funext fun a => by
    match a with
    | ⟨0, _⟩ => rfl
    | ⟨1, _⟩ => exact Fin.ext hi
  exact (congrArg (k0_pay1 (k0_pay2 X0 X4 X5 X6) X1 X2 X3 (k0_pay3 X0 X4 X5 X6 X1 X7 X8) X9 X10 X11) ey).trans
    ((block_spikes x u bt s Wsyn bsyn Wtm btm Wtadp btadp hx hu hWsyn hbsyn hWtm X0 X1 X2 X3 X4 X5 X6 X7 X8 X9 X10 X11
        (i 0) (y 0) h0 h1 h2 h3 h4 h5 h6 h7 h8 h9 h10 h11 (y 1)).trans
      (congrArg (spikes x u bt s Wsyn bsyn Wtm btm Wtadp btadp) ei.symm))

end Cert.Hand

end
-- ==== Proof.KernelArray.lean ====
/-
  From blocks to the array: what the kernel leaves in its result.

  The grid has 32 points; point `t` stages rows 128·t … 128·t + 127 of x, u, b, spk (all 2048 columns), the whole
  of each weight and bias array, and writes back rows 128·t … 128·t + 127 of the result. The weight arrays the
  region finds were written by the host before it: the synaptic and membrane-gate weights themselves and their
  remainders `W − W`, the adaptation-gate weights, and each bias as one row. So what point `t` writes back is block
  `t` of the spike map of the ten arguments (`block_spikes_at`), the 32 blocks tile the result, and the result
  array ends holding the spike map.
-/
import proofs.«135456_j47614007444119_2_alg».proof.Proof.Gen.KernelIdeal.Value
import proofs.«135456_j47614007444119_2_alg».proof.Proof.KernelBlock
import Idealize.ShloMosaic.Lib.StableHlo.Run
import Idealize.ShloMosaic.Lib.Pipeline.Value
import Idealize.ShloMosaic.Lib.ValueLayout

set_option maxRecDepth 16384

noncomputable section

namespace Cert.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The low half of an array at exact arithmetic: each entry minus itself. -/
def lowHalf {s : Shape} (W : s.Idx → EReal) : s.Idx → EReal := fun z => W z - W z

/-! ## The arrays the region finds -/

/-- The synaptic weights' high half is the weights (a change of float format is the identity). -/
theorem V_syn_hi (c : Dev nD) : (V m c main_v0 : S2048x2048.Idx → EReal) = m ((c : Thread nD τ).loc main_arg4) := by
  dsimp only [Gen.V, Gen.hostOps0]; after_results; rfl

/-- Their low half is the remainder `W − W`. -/
theorem V_syn_lo (c : Dev nD) : (V m c main_v3 : S2048x2048.Idx → EReal)
    = lowHalf (m ((c : Thread nD τ).loc main_arg4)) := by
  dsimp only [Gen.V, Gen.hostOps0]; after_results; rfl

theorem V_tm_hi (c : Dev nD) : (V m c main_v4 : S2048x2048.Idx → EReal) = m ((c : Thread nD τ).loc main_arg6) := by
  dsimp only [Gen.V, Gen.hostOps0]; after_results; rfl

theorem V_tm_lo (c : Dev nD) : (V m c main_v7 : S2048x2048.Idx → EReal)
    = lowHalf (m ((c : Thread nD τ).loc main_arg6)) := by
  dsimp only [Gen.V, Gen.hostOps0]; after_results; rfl

theorem V_tadp (c : Dev nD) : (V m c main_v8 : S2048x2048.Idx → EReal) = m ((c : Thread nD τ).loc main_arg8) := by
  dsimp only [Gen.V, Gen.hostOps0]; after_results; rfl

/-- Each bias as one row: the vector cast to [1, 2048]. -/
theorem V_bsyn (c : Dev nD) : (V m c main_v9 : S1x2048.Idx → EReal)
    = shapeCast S1x2048 (m ((c : Thread nD τ).loc main_arg5)) Facts₀.shapeCasts_S2048_S1x2048 := by
  dsimp only [Gen.V, Gen.hostOps0]; after_results; rfl
theorem V_btm (c : Dev nD) : (V m c main_v10 : S1x2048.Idx → EReal)
    = shapeCast S1x2048 (m ((c : Thread nD τ).loc main_arg7)) Facts₀.shapeCasts_S2048_S1x2048 := by
  dsimp only [Gen.V, Gen.hostOps0]; after_results; rfl
theorem V_btadp (c : Dev nD) : (V m c main_v11 : S1x2048.Idx → EReal)
    = shapeCast S1x2048 (m ((c : Thread nD τ).loc main_arg9)) Facts₀.shapeCasts_S2048_S1x2048 := by
  dsimp only [Gen.V, Gen.hostOps0]; after_results; rfl

/-! ## The printed index maps, decided over the grid -/

/-- The row windows (x, u, b, spk and the result) sit at block (t, 0). -/
theorem row_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0 :=
  (by decide +kernel : ∀ t : Fin grid0.N, _)

/-- The weight and bias windows sit at block (0, 0) at every point. -/
theorem whole_maps : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The blocks a point stages -/

/-- Row `y 0` of x's block at point `t` is the row of x that the result's block puts at `y`. -/
theorem rows_x (c : Dev nD) (t : Fin cfg0.N) (y : S128x2048.Idx) (k : Fin 2048) :
    (iblk m c 0 t : Vec Ideal S128x2048 .f32) (ix2 (y 0) k)
      = (m ((c : Thread nD τ).loc main_arg0) : S4096x2048.Idx → EReal) (ix2 ((((cfg0.win 12).blk t).view.emb y) 0) k) := by
  show V m c main_arg0 (((cfg0.win 0).blk t).view.emb (ix2 (y 0) k)) = _
  rw [V_main_arg0]
  obtain ⟨a0, a1, -, -, -, -, -, -, o0, -⟩ := row_maps t
  refine congrArg _ (funext fun a => Fin.ext ?_)
  match a with
  | ⟨0, _⟩ => show win0_0.index t (0 : Fin 2) * 128 + 1 * (y 0).val = win0_12.index t (0 : Fin 2) * 128 + 1 * (y 0).val; omega
  | ⟨1, _⟩ => show win0_0.index t (1 : Fin 2) * 2048 + 1 * k.val = k.val; omega

theorem rows_u (c : Dev nD) (t : Fin cfg0.N) (y : S128x2048.Idx) (k : Fin 2048) :
    (iblk m c 1 t : Vec Ideal S128x2048 .f32) (ix2 (y 0) k)
      = (m ((c : Thread nD τ).loc main_arg1) : S4096x2048.Idx → EReal) (ix2 ((((cfg0.win 12).blk t).view.emb y) 0) k) := by
  show V m c main_arg1 (((cfg0.win 1).blk t).view.emb (ix2 (y 0) k)) = _
  rw [V_main_arg1]
  obtain ⟨-, -, a0, a1, -, -, -, -, o0, -⟩ := row_maps t
  refine congrArg _ (funext fun a => Fin.ext ?_)
  match a with
  | ⟨0, _⟩ => show win0_1.index t (0 : Fin 2) * 128 + 1 * (y 0).val = win0_12.index t (0 : Fin 2) * 128 + 1 * (y 0).val; omega
  | ⟨1, _⟩ => show win0_1.index t (1 : Fin 2) * 2048 + 1 * k.val = k.val; omega

theorem rows_b (c : Dev nD) (t : Fin cfg0.N) (y : S128x2048.Idx) (k : Fin 2048) :
    (iblk m c 2 t : Vec Ideal S128x2048 .f32) (ix2 (y 0) k)
      = (m ((c : Thread nD τ).loc main_arg2) : S4096x2048.Idx → EReal) (ix2 ((((cfg0.win 12).blk t).view.emb y) 0) k) := by
  show V m c main_arg2 (((cfg0.win 2).blk t).view.emb (ix2 (y 0) k)) = _
  rw [V_main_arg2]
  obtain ⟨-, -, -, -, a0, a1, -, -, o0, -⟩ := row_maps t
  refine congrArg _ (funext fun a => Fin.ext ?_)
  match a with
  | ⟨0, _⟩ => show win0_2.index t (0 : Fin 2) * 128 + 1 * (y 0).val = win0_12.index t (0 : Fin 2) * 128 + 1 * (y 0).val; omega
  | ⟨1, _⟩ => show win0_2.index t (1 : Fin 2) * 2048 + 1 * k.val = k.val; omega

theorem rows_spk (c : Dev nD) (t : Fin cfg0.N) (y : S128x2048.Idx) (k : Fin 2048) :
    (iblk m c 3 t : Vec Ideal S128x2048 .f32) (ix2 (y 0) k)
      = (m ((c : Thread nD τ).loc main_arg3) : S4096x2048.Idx → EReal) (ix2 ((((cfg0.win 12).blk t).view.emb y) 0) k) := by
  show V m c main_arg3 (((cfg0.win 3).blk t).view.emb (ix2 (y 0) k)) = _
  rw [V_main_arg3]
  obtain ⟨-, -, -, -, -, -, a0, a1, o0, -⟩ := row_maps t
  refine congrArg _ (funext fun a => Fin.ext ?_)
  match a with
  | ⟨0, _⟩ => show win0_3.index t (0 : Fin 2) * 128 + 1 * (y 0).val = win0_12.index t (0 : Fin 2) * 128 + 1 * (y 0).val; omega
  | ⟨1, _⟩ => show win0_3.index t (1 : Fin 2) * 2048 + 1 * k.val = k.val; omega

/-- The synaptic weights' high block is the weights. -/
theorem blk_syn_hi (c : Dev nD) (t : Fin cfg0.N) (z : S2048x2048.Idx) :
    (iblk m c 4 t : Vec Ideal S2048x2048 .bf16) z = (m ((c : Thread nD τ).loc main_arg4) : S2048x2048.Idx → EReal) z := by
  show V m c main_v0 (((cfg0.win 4).blk t).view.emb z) = _
  obtain ⟨a0, a1, -⟩ := whole_maps t
  have e : ((cfg0.win 4).blk t).view.emb z = z := funext fun a => Fin.ext (by
    match a with
    | ⟨0, _⟩ => show win0_4.index t (0 : Fin 2) * 2048 + 1 * (z 0).val = (z 0).val; omega
    | ⟨1, _⟩ => show win0_4.index t (1 : Fin 2) * 2048 + 1 * (z 1).val = (z 1).val; omega)
  exact (congrArg (V m c main_v0) e).trans (congrFun (V_syn_hi m c) z)

theorem blk_syn_lo (c : Dev nD) (t : Fin cfg0.N) (z : S2048x2048.Idx) :
    (iblk m c 5 t : Vec Ideal S2048x2048 .bf16) z
      = lowHalf (m ((c : Thread nD τ).loc main_arg4) : S2048x2048.Idx → EReal) z := by
  show V m c main_v3 (((cfg0.win 5).blk t).view.emb z) = _
  obtain ⟨-, -, a0, a1, -⟩ := whole_maps t
  have e : ((cfg0.win 5).blk t).view.emb z = z := funext fun a => Fin.ext (by
    match a with
    | ⟨0, _⟩ => show win0_5.index t (0 : Fin 2) * 2048 + 1 * (z 0).val = (z 0).val; omega
    | ⟨1, _⟩ => show win0_5.index t (1 : Fin 2) * 2048 + 1 * (z 1).val = (z 1).val; omega)
  exact (congrArg (V m c main_v3) e).trans (congrFun (V_syn_lo m c) z)

theorem blk_tm_hi (c : Dev nD) (t : Fin cfg0.N) (z : S2048x2048.Idx) :
    (iblk m c 7 t : Vec Ideal S2048x2048 .bf16) z = (m ((c : Thread nD τ).loc main_arg6) : S2048x2048.Idx → EReal) z := by
  show V m c main_v4 (((cfg0.win 7).blk t).view.emb z) = _
  obtain ⟨-, -, -, -, -, -, a0, a1, -⟩ := whole_maps t
  have e : ((cfg0.win 7).blk t).view.emb z = z := funext fun a => Fin.ext (by
    match a with
    | ⟨0, _⟩ => show win0_7.index t (0 : Fin 2) * 2048 + 1 * (z 0).val = (z 0).val; omega
    | ⟨1, _⟩ => show win0_7.index t (1 : Fin 2) * 2048 + 1 * (z 1).val = (z 1).val; omega)
  exact (congrArg (V m c main_v4) e).trans (congrFun (V_tm_hi m c) z)

theorem blk_tm_lo (c : Dev nD) (t : Fin cfg0.N) (z : S2048x2048.Idx) :
    (iblk m c 8 t : Vec Ideal S2048x2048 .bf16) z
      = lowHalf (m ((c : Thread nD τ).loc main_arg6) : S2048x2048.Idx → EReal) z := by
  show V m c main_v7 (((cfg0.win 8).blk t).view.emb z) = _
  obtain ⟨-, -, -, -, -, -, -, -, a0, a1, -⟩ := whole_maps t
  have e : ((cfg0.win 8).blk t).view.emb z = z := funext fun a => Fin.ext (by
    match a with
    | ⟨0, _⟩ => show win0_8.index t (0 : Fin 2) * 2048 + 1 * (z 0).val = (z 0).val; omega
    | ⟨1, _⟩ => show win0_8.index t (1 : Fin 2) * 2048 + 1 * (z 1).val = (z 1).val; omega)
  exact (congrArg (V m c main_v7) e).trans (congrFun (V_tm_lo m c) z)

theorem blk_tadp (c : Dev nD) (t : Fin cfg0.N) (z : S2048x2048.Idx) :
    (iblk m c 10 t : Vec Ideal S2048x2048 .bf16) z = (m ((c : Thread nD τ).loc main_arg8) : S2048x2048.Idx → EReal) z := by
  show V m c main_v8 (((cfg0.win 10).blk t).view.emb z) = _
  obtain ⟨-, -, -, -, -, -, -, -, -, -, -, -, a0, a1, -⟩ := whole_maps t
  have e : ((cfg0.win 10).blk t).view.emb z = z := funext fun a => Fin.ext (by
    match a with
    | ⟨0, _⟩ => show win0_10.index t (0 : Fin 2) * 2048 + 1 * (z 0).val = (z 0).val; omega
    | ⟨1, _⟩ => show win0_10.index t (1 : Fin 2) * 2048 + 1 * (z 1).val = (z 1).val; omega)
  exact (congrArg (V m c main_v8) e).trans (congrFun (V_tadp m c) z)

/-- The synaptic bias's row block, at column `k`, is the bias at `k`. -/
theorem blk_bsyn (c : Dev nD) (t : Fin cfg0.N) (k : Fin 2048) :
    (iblk m c 6 t : Vec Ideal S1x2048 .f32) (ix2 (0 : Fin 1) k) = (m ((c : Thread nD τ).loc main_arg5) : S2048.Idx → EReal) (ix1 k) := by
  show V m c main_v9 (((cfg0.win 6).blk t).view.emb (ix2 (0 : Fin 1) k)) = _
  obtain ⟨-, -, -, -, a0, a1, -⟩ := whole_maps t
  have e : ((cfg0.win 6).blk t).view.emb (ix2 (0 : Fin 1) k) = ix2 (0 : Fin 1) k := funext fun a => Fin.ext (by
    match a with
    | ⟨0, _⟩ => show win0_6.index t (0 : Fin 2) * 1 + 1 * 0 = 0; omega
    | ⟨1, _⟩ => show win0_6.index t (1 : Fin 2) * 2048 + 1 * k.val = k.val; omega)
  refine (congrArg (V m c main_v9) e).trans ?_
  rw [V_bsyn]
  exact shapeCast_a_1a_apply _ _ 0 k

theorem blk_btm (c : Dev nD) (t : Fin cfg0.N) (k : Fin 2048) :
    (iblk m c 9 t : Vec Ideal S1x2048 .f32) (ix2 (0 : Fin 1) k) = (m ((c : Thread nD τ).loc main_arg7) : S2048.Idx → EReal) (ix1 k) := by
  show V m c main_v10 (((cfg0.win 9).blk t).view.emb (ix2 (0 : Fin 1) k)) = _
  obtain ⟨-, -, -, -, -, -, -, -, -, -, a0, a1, -⟩ := whole_maps t
  have e : ((cfg0.win 9).blk t).view.emb (ix2 (0 : Fin 1) k) = ix2 (0 : Fin 1) k := funext fun a => Fin.ext (by
    match a with
    | ⟨0, _⟩ => show win0_9.index t (0 : Fin 2) * 1 + 1 * 0 = 0; omega
    | ⟨1, _⟩ => show win0_9.index t (1 : Fin 2) * 2048 + 1 * k.val = k.val; omega)
  refine (congrArg (V m c main_v10) e).trans ?_
  rw [V_btm]
  exact shapeCast_a_1a_apply _ _ 0 k

theorem blk_btadp (c : Dev nD) (t : Fin cfg0.N) (k : Fin 2048) :
    (iblk m c 11 t : Vec Ideal S1x2048 .f32) (ix2 (0 : Fin 1) k) = (m ((c : Thread nD τ).loc main_arg9) : S2048.Idx → EReal) (ix1 k) := by
  show V m c main_v11 (((cfg0.win 11).blk t).view.emb (ix2 (0 : Fin 1) k)) = _
  obtain ⟨-, -, -, -, -, -, -, -, -, -, -, -, -, -, a0, a1⟩ := whole_maps t
  have e : ((cfg0.win 11).blk t).view.emb (ix2 (0 : Fin 1) k) = ix2 (0 : Fin 1) k := funext fun a => Fin.ext (by
    match a with
    | ⟨0, _⟩ => show win0_11.index t (0 : Fin 2) * 1 + 1 * 0 = 0; omega
    | ⟨1, _⟩ => show win0_11.index t (1 : Fin 2) * 2048 + 1 * k.val = k.val; omega)
  refine (congrArg (V m c main_v11) e).trans ?_
  rw [V_btadp]
  exact shapeCast_a_1a_apply _ _ 0 k

/-! ## What a point writes back, the cover, the array -/

theorem zero_offsets : (![0, 0] : Fin 2 → Nat) = fun _ => 0 := funext fun a => by fin_cases a <;> rfl

/-- The spike map of the ten argument arrays as device `c` holds them at launch. -/
abbrev spikesOf (c : Dev nD) : S4096x2048.Idx → EReal :=
  spikes (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The entries of x, u, W_syn, b_syn and W_Tm on device `c` are real numbers. -/
def RealAt (c : Dev nD) : Prop :=
  (∀ i, IsReal ((m ((c : Thread nD τ).loc main_arg0) : S4096x2048.Idx → EReal) i))
  ∧ (∀ i, IsReal ((m ((c : Thread nD τ).loc main_arg1) : S4096x2048.Idx → EReal) i))
  ∧ (∀ i, IsReal ((m ((c : Thread nD τ).loc main_arg4) : S2048x2048.Idx → EReal) i))
  ∧ (∀ i, IsReal ((m ((c : Thread nD τ).loc main_arg5) : S2048.Idx → EReal) i))
  ∧ (∀ i, IsReal ((m ((c : Thread nD τ).loc main_arg6) : S2048x2048.Idx → EReal) i))

/-- WHAT POINT `t` WRITES BACK is block `t` of the spike map. -/
theorem flushed_spikes (c : Dev nD) (hr : RealAt m c) (t : Fin cfg0.N) :
    (dats m 0 c).flushed 12 t = ((cfg0.win 12).blk t).view.read (Elt Ideal) (spikesOf m c) := by
  obtain ⟨hx, hu, hWsyn, hbsyn, hWtm⟩ := hr
  show (cfg0.win 12).cut (grid0.coords t) ((dats m 0 c).after 12 t) = _
  rw [after0_12]
  unfold out0_12
  rw [View.canon_unit_zero zero_offsets]
  simp only [View.ld_unit_zero (S := S128x2048) zero_offsets, View.ld_unit_zero (S := S2048x2048) zero_offsets,
    View.ld_unit_zero (S := S1x2048) zero_offsets]
  funext y
  show k0_pay1 (k0_pay2 (iblk m c 0 t) (iblk m c 4 t) (iblk m c 5 t) (iblk m c 6 t)) (iblk m c 1 t) (iblk m c 2 t) (iblk m c 3 t)
      (k0_pay3 (iblk m c 0 t) (iblk m c 4 t) (iblk m c 5 t) (iblk m c 6 t) (iblk m c 1 t) (iblk m c 7 t) (iblk m c 8 t))
      (iblk m c 9 t) (iblk m c 10 t) (iblk m c 11 t) y
    = spikesOf m c (((cfg0.win 12).blk t).view.emb y)
  obtain ⟨-, -, -, -, -, -, -, -, -, o1⟩ := row_maps t
  refine block_spikes_at _ _ _ _ _ _ _ _ _ _ hx hu hWsyn hbsyn hWtm _ _ _ _ _ _ _ _ _ _ _ _ y
    (((cfg0.win 12).blk t).view.emb y) ?_ (rows_x m c t y) (rows_u m c t y) (rows_b m c t y) (rows_spk m c t y)
    (blk_syn_hi m c t) (blk_syn_lo m c t) (blk_bsyn m c t) (blk_tm_hi m c t) (blk_tm_lo m c t) (blk_btm m c t)
    (blk_tadp m c t) (blk_btadp m c t)
  show win0_12.index t (1 : Fin 2) * 2048 + 1 * (y 1).val = (y 1).val
  omega

/-- An index of the result is in point `t`'s block iff each coordinate is in the block's range on its axis. -/
theorem mem_block (t : Fin cfg0.N) (i : S4096x2048.Idx) :
    i ∈ ((cfg0.win 12).blk t).view.set
      ↔ ∀ a : Fin 2, win0_12.index t a * S128x2048.size a ≤ (i a).val ∧ (i a).val < win0_12.index t a * S128x2048.size a + S128x2048.size a := by
  show i ∈ ((View.whole main_v12).slice (win0_12.rect t)).set ↔ _
  rw [View.set_slice_whole, Rect.mem_set_unit]
  exact Iff.rfl

/-- THE COVER: row `p` of the result is in the block of point `p / 128`. -/
theorem covered (i : S4096x2048.Idx) :
    ∃ t : Fin cfg0.N, (cfg0.win 12).flush t = true ∧ i ∈ ((cfg0.win 12).blk t).view.set := by
  have hi0 : (i 0).val < 4096 := (i 0).isLt
  have hi1 : (i 1).val < 2048 := (i 1).isLt
  have hN : grid0.N = 32 := N_0
  obtain ⟨t, ht⟩ : ∃ t : Fin cfg0.N, t.val = (i 0).val / 128 := ⟨⟨(i 0).val / 128, by show _ < grid0.N; omega⟩, rfl⟩
  refine ⟨t, flush0_12 t, ?_⟩
  rw [mem_block]
  obtain ⟨-, -, -, -, -, -, -, -, o0, o1⟩ := row_maps t
  intro a
  match a with
  | ⟨0, _⟩ =>
    show win0_12.index t (0 : Fin 2) * 128 ≤ (i 0).val ∧ (i 0).val < win0_12.index t (0 : Fin 2) * 128 + 128
    omega
  | ⟨1, _⟩ =>
    show win0_12.index t (1 : Fin 2) * 2048 ≤ (i 1).val ∧ (i 1).val < win0_12.index t (1 : Fin 2) * 2048 + 2048
    omega

/-- THE ARRAY after the run is the spike map of the arguments. -/
theorem final_spikes (c : Dev nD) (hr : RealAt m c) : (dats m 0 c).arrAt 12 cfg0.N = spikesOf m c :=
  (dats m 0 c).arrAt_eq_of_cover 12 (spikesOf m c) (fun t _ => flushed_spikes m c hr t) covered

/-- THE RUN: every weakly fair execution of the kernel's program terminates, without a fault, with the result array
    at the spike map of the arguments and the arguments unchanged — on devices whose five arrays are real. -/
theorem kernel_run (hr : ∀ c : Dev nD, RealAt m c) :
    θ_run defs (onTc (τ := τ) (main (F := Ideal))) ⟨m, fun _ => 0, ρ⟩ fun r => ∀ c : Dev nD,
      r.2.mem ((c : Thread nD τ).loc main_v12) = spikesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_spikes m c (hr c)), (h c).2⟩)
    (Cert.KernelIdeal.Value.run_blocks m ρ)

end Cert.Hand

end
-- ==== Proof.lean ====
/-
  A spiking layer with adaptive threshold, fused in one kernel, against its plain reference: equal results over the
  extended reals, for finite inputs.

  Both programs compute, for batch row p and neuron q, the spike map of Proof/Spikes.lean: the drive
  L1 = x · W_synᵀ + b_syn, the gates alpha = σ((L1 + u) · W_Tmᵀ + b_Tm) and rho = σ((L1 + b) · W_Tadpᵀ + b_Tadp), and
  the spike `u + (−u + L1) / alpha − (0.01 + 1.8 · (rho · b + (1 − rho) · spk)) > 0`.

  The reference does so directly (Proof/ReferenceSpikes.lean, over the generated reading of its run). The kernel
  works on blocks of 128 batch rows and takes the two products that feed the threshold comparison in three passes
  each, from a high and a low half of every operand. At exact arithmetic a half-precision copy of a value is the
  value, so the high half is the operand and the low half is the operand minus itself: zero for a real number,
  −∞ at an infinity. This is the one place the precondition is used — the entries of x, u, W_syn, b_syn and W_Tm
  are real (Proof/RealInputs.lean), hence so is L1 + u, both low halves vanish, and the three passes are the plain
  product (Proof/KernelBlock.lean). The 32 blocks tile the result (Proof/KernelArray.lean).

  The two rewrites of the idealization are the same identity, "widening a narrowed value gives it back", once for x
  and once for L1 + u.
-/
import proofs.«135456_j47614007444119_2_alg».proof.Defs
import proofs.«135456_j47614007444119_2_alg».proof.Proof.Gen.Kernel
import proofs.«135456_j47614007444119_2_alg».proof.Proof.Gen.Kernel.Skeleton
import proofs.«135456_j47614007444119_2_alg».proof.Proof.Gen.Kernel.Launch
import proofs.«135456_j47614007444119_2_alg».proof.Proof.Gen.Kernel.Points
import proofs.«135456_j47614007444119_2_alg».proof.Proof.Gen.Kernel.Frame
import proofs.«135456_j47614007444119_2_alg».proof.Proof.Gen.KernelIdeal
import proofs.«135456_j47614007444119_2_alg».proof.Proof.Gen.KernelIdeal.Skeleton
import proofs.«135456_j47614007444119_2_alg».proof.Proof.Gen.KernelIdeal.Launch
import proofs.«135456_j47614007444119_2_alg».proof.Proof.Gen.KernelIdeal.Points
import proofs.«135456_j47614007444119_2_alg».proof.Proof.Gen.KernelIdeal.Frame
import proofs.«135456_j47614007444119_2_alg».proof.Proof.Gen.ReferenceIdeal
import proofs.«135456_j47614007444119_2_alg».proof.Proof.Gen.KernelIdeal.Value
import proofs.«135456_j47614007444119_2_alg».proof.Proof.Gen.ReferenceIdeal.Run
import proofs.«135456_j47614007444119_2_alg».proof.Proof.Gen.ReferenceIdeal.Read
import proofs.«135456_j47614007444119_2_alg».proof.Proof.Gen.Pre_finite_inputs
import proofs.«135456_j47614007444119_2_alg».proof.Proof.RealInputs
import proofs.«135456_j47614007444119_2_alg».proof.Proof.ReferenceSpikes
import proofs.«135456_j47614007444119_2_alg».proof.Proof.KernelArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's two rewrites: a value narrowed to half precision and widened back is the value. -/
theorem preserves : Cert.preserves_Kernel_KernelIdeal :=
  ⟨IdealRules.truncf_extf.statement _ .f32 .bf16, IdealRules.truncf_extf.statement _ .f32 .bf16⟩

/-- From memories agreeing on the ten arguments, all finite, both programs end with the spike map of the arguments
    in their result. -/
theorem algebraic : Cert.algebraic_KernelIdeal_ReferenceIdeal := by
  intro m ρ m' ρ' hpre hagree
  have hr : ∀ c, Cert.Hand.RealAt m c := fun c => by
    obtain ⟨h0, h1, h4, h5, h6⟩ := Cert.Hand.real_of_finite_inputs _ _ _ _ _ _ _ _ _ _ (hpre c)
    exact ⟨h0, h1, h4, h5, h6⟩
  refine ⟨fun c => Cert.Hand.spikesOf m c, Cert.Hand.kernel_run m ρ hr, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v45_eq, Cert.Hand.ref_spikes, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
